-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x8 : Shape := ⟨2, ![800000, 8]⟩
abbrev S136x64 : Shape := ⟨2, ![136, 64]⟩
abbrev S64 : Shape := ⟨1, ![64]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x8 : S_.BroadcastsInDim S800000x8 (![] : Fin 0 → Fin S800000x8.rank)
  reducesTo_S800000x8_S_d0_1 : S800000x8.ReducesTo [0, 1] S_
  bcast_S_S136x64 : S_.BroadcastsInDim S136x64 (![] : Fin 0 → Fin S136x64.rank)
  reducesTo_S136x64_S_d0_1 : S136x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg5 : FVec F S64x64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : IVec S2x800000 32) (main_arg2 : FVec F S800000x8 .f32) (main_arg3 : FVec F S136x64 .f32) (main_arg4 : FVec F S64 .f32) (main_arg5 : FVec F S64x64 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x8 .f32 := Host.absf main_arg2
  let main_cst_0 : FVec F S_ .f32 := constant S_ .f32 0x7F800000#32
  let main_v5 : FVec F S800000x8 .f32 := broadcastInDim S800000x8 ![] bcast_S_S800000x8 main_cst_0
  let main_v6 : IVec S800000x8 1 := cmpf .olt main_v4 main_v5
  let main_c_1 : IVec S_ 1 := constantI S_ 1 1#1
  let main_v7 : IVec S_ 1 := (fun x v => Host.reduce IntOp.andi x v reducesTo_S800000x8_S_d0_1 h_S_) main_v6 main_c_1
  let main_v8 : IVec S_ 1 := andi main_v3 main_v7
  let main_v9 : FVec F S136x64 .f32 := Host.absf main_arg3
  let main_cst_2 : FVec F S_ .f32 := constant S_ .f32 0x7F800000#32
  let main_v10 : FVec F S136x64 .f32 := broadcastInDim S136x64 ![] bcast_S_S136x64 main_cst_2
  let main_v11 : IVec S136x64 1 := cmpf .olt main_v9 main_v10
  let main_c_3 : IVec S_ 1 := constantI S_ 1 1#1
  let main_v12 : IVec S_ 1 := (fun x v => Host.reduce IntOp.andi x v reducesTo_S136x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x64 : Shape := ⟨2, ![50000, 64]⟩
abbrev S2x800000 : Shape := ⟨2, ![2, 800000]⟩
abbrev S800000x8 : Shape := ⟨2, ![800000, 8]⟩
abbrev S136x64 : Shape := ⟨2, ![136, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S8x64 : Shape := ⟨2, ![8, 64]⟩
abbrev S1x64 : Shape := ⟨2, ![1, 64]⟩
abbrev S16000x64 : Shape := ⟨2, ![16000, 64]⟩
abbrev S16000x8 : Shape := ⟨2, ![16000, 8]⟩

abbrev nBuf : Space → Nat
  | .hbm => 41
  | .vmem => 14
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x8, .f32⟩
  | .hbm, ⟨3, _⟩ => ⟨S136x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S50000x64, .bf16⟩
  | .hbm, ⟨12, _⟩ => ⟨S800000x8, .bf16⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .bf16⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .bf16⟩
  | .hbm, ⟨31, _⟩ => ⟨S64x64, .f32⟩
  | .hbm, ⟨32, _⟩ => ⟨S64x64, .f32⟩
  | .hbm, ⟨33, _⟩ => ⟨S8x64, .f32⟩
  | .hbm, ⟨34, _⟩ => ⟨S1x64, .f32⟩
  | .hbm, ⟨35, _⟩ => ⟨S1x64, .f32⟩
  | .hbm, ⟨36, _⟩ => ⟨S800000x64, .f32⟩
  | .hbm, ⟨37, _⟩ => ⟨S_, .f32⟩
  | .hbm, ⟨38, _⟩ => ⟨S50000x64, .f32⟩
  | .hbm, ⟨39, _⟩ => ⟨S800000x1, .i32⟩
  | .hbm, ⟨40, _⟩ => ⟨S50000x64, .f32⟩
  | .local _ .vmem, ⟨0, _⟩ => ⟨S16000x64, .bf16⟩
  | .local _ .vmem, ⟨1, _⟩ => ⟨S16000x64, .bf16⟩
  | .local _ .vmem, ⟨2, _⟩ => ⟨S16000x64, .bf16⟩
  | .local _ .vmem, ⟨3, _⟩ => ⟨S16000x64, .bf16⟩
  | .local _ .vmem, ⟨4, _⟩ => ⟨S16000x8, .bf16⟩
  | .local _ .vmem, ⟨5, _⟩ => ⟨S16000x8, .bf16⟩
  | .local _ .vmem, ⟨6, _⟩ => ⟨S64x64, .f32⟩
  | .local _ .vmem, ⟨7, _⟩ => ⟨S64x64, .f32⟩
  | .local _ .vmem, ⟨8, _⟩ => ⟨S8x64, .f32⟩
  | .local _ .vmem, ⟨9, _⟩ => ⟨S1x64, .f32⟩
  | .local _ .vmem, ⟨10, _⟩ => ⟨S64x64, .f32⟩
  | .local _ .vmem, ⟨11, _⟩ => ⟨S1x64, .f32⟩
  | .local _ .vmem, ⟨12, _⟩ => ⟨S16000x64, .f32⟩
  | .local _ .vmem, ⟨13, _⟩ => ⟨S16000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7 : Ref sig .tc := ⟨.hbm, 15, rfl⟩
abbrev main_c_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c_1 : Ref sig .tc := ⟨.hbm, 22, rfl⟩
abbrev main_v13 : Ref sig .tc := ⟨.hbm, 23, rfl⟩
abbrev main_v14 : Ref sig .tc := ⟨.hbm, 24, rfl⟩
abbrev main_c_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16000x8 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S16000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S136x64_S64x64_0_0 : S136x64.Slices ![0, 0] S64x64
  slices_S136x64_S64x64_64_0 : S136x64.Slices ![64, 0] S64x64
  slices_S136x64_S8x64_128_0 : S136x64.Slices ![128, 0] S8x64
  shapeCasts_S64_S1x64 : S64.ShapeCasts S1x64
  inb_S16000x64_S16000x64_0_0 : ∀ a, (![0, 0] : Fin 2 → Nat) a + S16000x64.size a ≤ S16000x64.size a
  h_S16000x64 : 0 < S16000x64.numel
  shapeCasts_S16000x64_S16000x64 : S16000x64.ShapeCasts S16000x64
  inb_S16000x8_S16000x8_0_0 : ∀ a, (![0, 0] : Fin 2 → Nat) a + S16000x8.size a ≤ S16000x8.size a
  h_S16000x8 : 0 < S16000x8.numel
  shapeCasts_S16000x8_S16000x8 : S16000x8.ShapeCasts S16000x8
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S16000x64 : S1x64.Broadcasts S16000x64
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S16000x64_S64x64_S16000x64_1_0_0_1_n_n_wf : DotDims.WF S16000x64 S64x64 S16000x64 [1] [0] [0] [1] [] []
  dot_S16000x8_S8x64_S16000x64_1_0_0_1_n_n_wf : DotDims.WF S16000x8 S8x64 S16000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16000x64.size a ≤ S800000x64.size a
  hwx0_0 : ∀ i : grid0.Coords, EltTy.bits .bf16 = 32 ∨ (Rect.block (s := S800000x64) S16000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16000x64.size a ≤ S800000x64.size a
  hwx0_1 : ∀ i : grid0.Coords, EltTy.bits .bf16 = 32 ∨ (Rect.block (s := S800000x64) S16000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16000x8.size a ≤ S800000x8.size a
  hwx0_2 : ∀ i : grid0.Coords, EltTy.bits .bf16 = 32 ∨ (Rect.block (s := S800000x8) S16000x8.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8x64.size a ≤ S8x64.size a
  hwx0_5 : ∀ i : grid0.Coords, EltTy.bits .f32 = 32 ∨ (Rect.block (s := S8x64) S8x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16000x64.size a ≤ S800000x64.size a
  hwx0_9 : ∀ i : grid0.Coords, EltTy.bits .f32 = 32 ∨ (Rect.block (s := S800000x64) S16000x64.size (cc0_transform_9 i) (hinb0_9 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S16000x64_S64x64_S16000x64_1_0_0_1_n_n : DotDims S16000x64 S64x64 S16000x64 where
  lhsContracting := [1]
  rhsContracting := [0]
  lhsNonContracting := [0]
  rhsNonContracting := [1]
  lhsBatch := []
  rhsBatch := []
  wf := dot_S16000x64_S64x64_S16000x64_1_0_0_1_n_n_wf
def dot_S16000x8_S8x64_S16000x64_1_0_0_1_n_n : DotDims S16000x8 S8x64 S16000x64 where
  lhsContracting := [1]
  rhsContracting := [0]
  lhsNonContracting := [0]
  rhsNonContracting := [1]
  lhsBatch := []
  rhsBatch := []
  wf := dot_S16000x8_S8x64_S16000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_v12) S16000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S16000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S16000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S8x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v24) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v25) S16000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x8 : Shape := ⟨2, ![800000, 8]⟩
abbrev S136x64 : Shape := ⟨2, ![136, 64]⟩
abbrev S64 : Shape := ⟨1, ![64]⟩
abbrev S64x64 : Shape := ⟨2, ![64, 64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x136 : Shape := ⟨2, ![800000, 136]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x8, .f32⟩
  | .hbm, ⟨3, _⟩ => ⟨S136x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x136, .f32⟩
  | .hbm, ⟨30, _⟩ => ⟨S800000x64, .f32⟩
  | .hbm, ⟨31, _⟩ => ⟨S1x64, .f32⟩
  | .hbm, ⟨32, _⟩ => ⟨S800000x64, .f32⟩
  | .hbm, ⟨33, _⟩ => ⟨S800000x64, .f32⟩
  | .hbm, ⟨34, _⟩ => ⟨S_, .f32⟩
  | .hbm, ⟨35, _⟩ => ⟨S800000x64, .f32⟩
  | .hbm, ⟨36, _⟩ => ⟨S800000x64, .f32⟩
  | .hbm, ⟨37, _⟩ => ⟨S800000x64, .f32⟩
  | .hbm, ⟨38, _⟩ => ⟨S1x64, .f32⟩
  | .hbm, ⟨39, _⟩ => ⟨S800000x64, .f32⟩
  | .hbm, ⟨40, _⟩ => ⟨S800000x64, .f32⟩
  | .hbm, ⟨41, _⟩ => ⟨S_, .f32⟩
  | .hbm, ⟨42, _⟩ => ⟨S50000x64, .f32⟩
  | .hbm, ⟨43, _⟩ => ⟨S800000x1, .i32⟩
  | .hbm, ⟨44, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x8_S800000x136_d1 : Shape.Concatenates [S800000x64, S800000x64, S800000x8] S800000x136 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  gather_S50000x64_S800000x1_S800000x64_1_0_n_n_0_1_164_wf : GatherDims.WF S50000x64 S800000x1 S800000x64 [1] [0] [] [0] [] 1 ![1, 64]
  dot_S800000x136_S136x64_S800000x64_1_0_0_1_n_n_wf : DotDims.WF S800000x136 S136x64 S800000x64 [1] [0] [0] [1] [] []
  dot_S800000x64_S64x64_S800000x64_1_0_0_1_n_n_wf : DotDims.WF S800000x64 S64x64 S800000x64 [1] [0] [0] [1] [] []
  scatter_S50000x64_S800000x1_S800000x64_1_0_0_1_wf : ScatterDims.WF S50000x64 S800000x1 S800000x64 [1] [0] [0] 1

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x136_S136x64_S800000x64_1_0_0_1_n_n : DotDims S800000x136 S136x64 S800000x64 where
  lhsContracting := [1]
  rhsContracting := [0]
  lhsNonContracting := [0]
  rhsNonContracting := [1]
  lhsBatch := []
  rhsBatch := []
  wf := dot_S800000x136_S136x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibMatmulIx.lean ====
/-
  A matrix product of an `[a, K]` array with a `[K, b]` array read at the entry `(p, q)`, at the ideal values:
  the sum over `k` of the left operand's `(p, k)` entry times the right operand's `(k, q)` entry — for a kernel's
  product accumulated into the zero splat (`matmul_zero_ix2`) and for the host's product (`dotGeneral_ix2`), stated
  for any dimension numbers that contract the left operand's columns with the right operand's rows (the four
  coordinate facts `hl0 … hr1`, which a literal record proves by evaluation).
-/
import Idealize.ShloMosaic.Lib.ValueIdx
import Idealize.ShloMosaic.PureOps.Ideal.Laws

namespace MatmulIx

open Idealize.ShloMosaic Idealize.ShloMosaic.ValueIdx

variable {a K b : ℕ} {φ₁ φ₂ : FTy}

/-- The contraction's sum re-indexed by the one contracted coordinate. -/
theorem sum_contr (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (x : (⟨2, ![a, K]⟩ : Shape).Idx → EReal) (w : (⟨2, ![K, b]⟩ : Shape).Idx → EReal) (p : Fin a) (q : Fin b) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun c => Fin.ext (by
    match c with
    | ⟨0, _⟩ => exact hl0 _ _
    | ⟨1, _⟩ => exact (hl1 _ _).trans hk)
  have er : D.rhsIdx (ix2 p q) ((contrEquiv1 D K hr hs).symm k) = ix2 k q := funext fun c => Fin.ext (by
    match c with
    | ⟨0, _⟩ => exact (hr0 _ _).trans hk
    | ⟨1, _⟩ => exact hr1 _ _)
  rw [el, er]

/-- A kernel's matrix product into the zero splat, at `(p, q)`: the row of the left operand times the column of the
    right one. -/
theorem matmul_zero_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    matmul D prec x w (constant (F := Ideal) ⟨2, ![a, b]⟩ .f32 0x00000000#32) (ix2 p q)
      = ∑ k : Fin K, x (ix2 p k) * w (ix2 k q) :=
  (Ideal.matmul_constant_zero_apply D prec x w (ix2 p q)).trans (sum_contr D hr hs hl0 hl1 hr0 hr1 x w p q)

/-- The host's matrix product at `(p, q)`: the same sum. -/
theorem dotGeneral_ix2 (D : DotDims ⟨2, ![a, K]⟩ ⟨2, ![K, b]⟩ ⟨2, ![a, b]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (prec : Option ContractPrecision)
    (x : FVec Ideal ⟨2, ![a, K]⟩ φ₁) (w : FVec Ideal ⟨2, ![K, b]⟩ φ₂) (p : Fin a) (q : Fin b) :
    Host.dotGeneral D prec x w (ix2 p q) = ∑ k : Fin K, x (ix2 p k) * w (ix2 k q) :=
  (Ideal.dotGeneral_apply D prec .single x w (ix2 p q)).trans (sum_contr D hr hs hl0 hl1 hr0 hr1 x w p q)

end MatmulIx
-- ==== Proof.LibSumBlocks.lean ====
/-
  A finite sum over consecutive indices cut at a point, and cut into equal blocks with one index left over:
  the sum over `a + b` indices is the sum over the first `a` plus the sum over the last `b`
  (`sum_fin_add`); a sum over `B + B + B + 1` indices (`sum_blocks3_last`), over `B + B + B + B + 1` indices
  (`sum_blocks4_last`) and over `B + B + B` indices (`sum_blocks3`) as the block sums added in order, then the
  last index's term. In any additive commutative monoid, so on the extended reals with no finiteness asked.
-/
import Mathlib.Algebra.BigOperators.Fin

namespace SumBlocks

open Finset

variable {M : Type*} [AddCommMonoid M]

/-- The sum over `a + b` consecutive indices is the sum over the first `a` plus the sum over the last `b`. -/
theorem sum_fin_add (a b n : ℕ) (h : a + b = n) (f : Fin n → M) :
    ∑ k, f k = ∑ k : Fin a, f ⟨k.val, by omega⟩ + ∑ k : Fin b, f ⟨a + k.val, by omega⟩ := by
  subst h
  rw [Fin.sum_univ_add]
  rfl

/-- Three blocks of `B` indices and one last index. -/
theorem sum_blocks3_last (B n : ℕ) (h : B + B + B + 1 = n) (f : Fin n → M) :
    ∑ k, f k = ((∑ k : Fin B, f ⟨k.val, by omega⟩ + ∑ k : Fin B, f ⟨B + k.val, by omega⟩)
        + ∑ k : Fin B, f ⟨B + B + k.val, by omega⟩) + f ⟨B + B + B, by omega⟩ := by
  rw [sum_fin_add (B + B + B) 1 n h f, sum_fin_add (B + B) B (B + B + B) rfl, sum_fin_add B B (B + B) rfl,
    Fin.sum_univ_one]
  rfl

/-- Four blocks of `B` indices and one last index. -/
theorem sum_blocks4_last (B n : ℕ) (h : B + B + B + B + 1 = n) (f : Fin n → M) :
    ∑ k, f k = (((∑ k : Fin B, f ⟨k.val, by omega⟩ + ∑ k : Fin B, f ⟨B + k.val, by omega⟩)
        + ∑ k : Fin B, f ⟨B + B + k.val, by omega⟩) + ∑ k : Fin B, f ⟨B + B + B + k.val, by omega⟩)
        + f ⟨B + B + B + B, by omega⟩ := by
  rw [sum_fin_add (B + B + B + B) 1 n h f, sum_fin_add (B + B + B) B (B + B + B + B) rfl,
    sum_fin_add (B + B) B (B + B + B) rfl, sum_fin_add B B (B + B) rfl, Fin.sum_univ_one]
  rfl

/-- Three blocks of `B` indices. -/
theorem sum_blocks3 (B n : ℕ) (h : B + B + B = n) (f : Fin n → M) :
    ∑ k, f k = (∑ k : Fin B, f ⟨k.val, by omega⟩ + ∑ k : Fin B, f ⟨B + k.val, by omega⟩)
        + ∑ k : Fin B, f ⟨B + B + k.val, by omega⟩ := by
  rw [sum_fin_add (B + B) B n h f, sum_fin_add B B (B + B) rfl]

end SumBlocks
-- ==== Proof.EdgeMessage.lean ====
/-
  The message one edge sends, as a function of the rows it reads.

  Edge `e` has a row `xs e` of its source node's features (64 numbers), a row `xd e` of its destination node's
  features (64 numbers) and a row `ea e` of its own attributes (8 numbers).  The hidden layer is
      h e j = max ((xs e · ws j + xd e · wd j) + ea e · we j + b1 j) 0          (j = 0 … 63)
  with three weight blocks `ws`, `wd` (64 × 64) and `we` (8 × 64), and the message is
      msg e q = (∑ j, h e j * w2 j q) + b2 q                                     (q = 0 … 63).
  Row `e` of the result depends on row `e` of `xs`, `xd`, `ea` only, so the same definition describes a block of
  rows and the whole array (`edgeMsg_rows`).

  The three partial products are one product: when the three rows are laid side by side into one row of 136
  numbers and the three weight blocks are the consecutive row blocks of one 136 × 64 matrix, the sum over the 136
  columns is the sum over the first 64, plus the sum over the next 64, plus the sum over the last 8
  (`hidden_eq_joined`).  This is a regrouping of a finite sum in a commutative monoid, so it holds on the extended
  reals with no finiteness asked of any entry.
-/
import Idealize.ShloMosaic.Lib.ValueIdx
import Idealize.ShloMosaic.PureOps.Ideal
import proofs.«137029_j14886356648763_2_alg».proof.Proof.LibSumBlocks

noncomputable section

namespace EdgeMessage

open Idealize.ShloMosaic Idealize.ShloMosaic.ValueIdx

variable {E : ℕ}

/-- The hidden layer before its bias: the source row against `ws`, plus the destination row against `wd`, plus the
    attribute row against `we`, at hidden unit `j`. -/
def hidden (xs xd : (⟨2, ![E, 64]⟩ : Shape).Idx → EReal) (ea : (⟨2, ![E, 8]⟩ : Shape).Idx → EReal)
    (ws wd : (⟨2, ![64, 64]⟩ : Shape).Idx → EReal) (we : (⟨2, ![8, 64]⟩ : Shape).Idx → EReal)
    (e : Fin E) (j : Fin 64) : EReal :=
  (∑ k : Fin 64, xs (ix2 e k) * ws (ix2 k j) + ∑ k : Fin 64, xd (ix2 e k) * wd (ix2 k j))
    + ∑ k : Fin 8, ea (ix2 e k) * we (ix2 k j)

/-- The message of edge `i 0` at output feature `i 1`: the hidden layer with its bias row, cut off below at zero,
    against `w2`, plus the second bias row. -/
def edgeMsg (xs xd : (⟨2, ![E, 64]⟩ : Shape).Idx → EReal) (ea : (⟨2, ![E, 8]⟩ : Shape).Idx → EReal)
    (ws wd : (⟨2, ![64, 64]⟩ : Shape).Idx → EReal) (we : (⟨2, ![8, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal) : (⟨2, ![E, 64]⟩ : Shape).Idx → EReal := fun i =>
  (∑ j : Fin 64, max (hidden xs xd ea ws wd we (i 0) j + b1 (ix2 (0 : Fin 1) j)) (Ideal.ofBits .f32 0x00000000#32)
      * w2 (ix2 j (i 1)))
    + b2 (ix2 (0 : Fin 1) (i 1))

/-- The message of an edge reads its own rows, and the weights and bias rows, only: if row `p` of a block is row `e`
    of the whole arrays and the other operands agree entry by entry, the block's message at `(p, q)` is the whole
    arrays' message at `(e, q)`. -/
theorem edgeMsg_rows {B : ℕ} (xs xd : (⟨2, ![E, 64]⟩ : Shape).Idx → EReal) (ea : (⟨2, ![E, 8]⟩ : Shape).Idx → EReal)
    (ws wd : (⟨2, ![64, 64]⟩ : Shape).Idx → EReal) (we : (⟨2, ![8, 64]⟩ : Shape).Idx → EReal)
    (b1 : (⟨2, ![1, 64]⟩ : Shape).Idx → EReal) (w2 : (⟨2, ![64, 64]⟩ : Shape).Idx → EReal)
    (b2 : (⟨2, ![1, 64]⟩ : Shape).Idx → EReal)
    (ys yd : (⟨2, ![B, 64]⟩ : Shape).Idx → EReal) (ya : (⟨2, ![B, 8]⟩ : Shape).Idx → EReal)
    (vs vd : (⟨2, ![64, 64]⟩ : Shape).Idx → EReal) (ve : (⟨2, ![8, 64]⟩ : Shape).Idx → EReal)
    (c1 : (⟨2, ![1, 64]⟩ : Shape).Idx → EReal) (v2 : (⟨2, ![64, 64]⟩ : Shape).Idx → EReal)
    (c2 : (⟨2, ![1, 64]⟩ : Shape).Idx → EReal) (p : Fin B) (e : Fin E) (q : Fin 64)
    (hs : ∀ k, ys (ix2 p k) = xs (ix2 e k)) (hd : ∀ k, yd (ix2 p k) = xd (ix2 e k))
    (ha : ∀ k, ya (ix2 p k) = ea (ix2 e k))
    (hws : ∀ k j, vs (ix2 k j) = ws (ix2 k j)) (hwd : ∀ k j, vd (ix2 k j) = wd (ix2 k j))
    (hwe : ∀ k j, ve (ix2 k j) = we (ix2 k j)) (hb1 : ∀ j, c1 (ix2 (0 : Fin 1) j) = b1 (ix2 (0 : Fin 1) j))
    (hw2 : ∀ j r, v2 (ix2 j r) = w2 (ix2 j r)) (hb2 : ∀ r, c2 (ix2 (0 : Fin 1) r) = b2 (ix2 (0 : Fin 1) r)) :
    edgeMsg ys yd ya vs vd ve c1 v2 c2 (ix2 p q) = edgeMsg xs xd ea ws wd we b1 w2 b2 (ix2 e q) := by
  show (∑ j : Fin 64, max (hidden ys yd ya vs vd ve p j + c1 (ix2 (0 : Fin 1) j)) (Ideal.ofBits .f32 0x00000000#32)
      * v2 (ix2 j q)) + c2 (ix2 (0 : Fin 1) q)
    = (∑ j : Fin 64, max (hidden xs xd ea ws wd we e j + b1 (ix2 (0 : Fin 1) j)) (Ideal.ofBits .f32 0x00000000#32)
      * w2 (ix2 j q)) + b2 (ix2 (0 : Fin 1) q)
  have h : ∀ j, hidden ys yd ya vs vd ve p j = hidden xs xd ea ws wd we e j := fun j => by
    unfold hidden
    simp only [hs, hd, ha, hws, hwd, hwe]
  simp only [h, hb1, hw2, hb2]

/-- The three partial products are the one product of the joined row with the stacked weights: the sum over 136
    columns cut at 64 and at 128. -/
theorem hidden_eq_joined (xs xd : (⟨2, ![E, 64]⟩ : Shape).Idx → EReal) (ea : (⟨2, ![E, 8]⟩ : Shape).Idx → EReal)
    (ws wd : (⟨2, ![64, 64]⟩ : Shape).Idx → EReal) (we : (⟨2, ![8, 64]⟩ : Shape).Idx → EReal)
    (row : (⟨2, ![E, 136]⟩ : Shape).Idx → EReal) (w1 : (⟨2, ![136, 64]⟩ : Shape).Idx → EReal) (e : Fin E) (j : Fin 64)
    (hs : ∀ k : Fin 64, row (ix2 e ⟨k.val, by omega⟩) = xs (ix2 e k))
    (hd : ∀ k : Fin 64, row (ix2 e ⟨64 + k.val, by omega⟩) = xd (ix2 e k))
    (ha : ∀ k : Fin 8, row (ix2 e ⟨128 + k.val, by omega⟩) = ea (ix2 e k))
    (hws : ∀ k : Fin 64, w1 (ix2 ⟨k.val, by omega⟩ j) = ws (ix2 k j))
    (hwd : ∀ k : Fin 64, w1 (ix2 ⟨64 + k.val, by omega⟩ j) = wd (ix2 k j))
    (hwe : ∀ k : Fin 8, w1 (ix2 ⟨128 + k.val, by omega⟩ j) = we (ix2 k j)) :
    ∑ k : Fin 136, row (ix2 e k) * w1 (ix2 k j) = hidden xs xd ea ws wd we e j := by
  rw [SumBlocks.sum_fin_add 128 8 136 rfl, SumBlocks.sum_fin_add 64 64 128 rfl]
  unfold hidden
  refine congrArg₂ (· + ·) (congrArg₂ (· + ·) ?_ ?_) ?_
  · exact Finset.sum_congr rfl fun k _ => by rw [← hs k, ← hws k]
  · exact Finset.sum_congr rfl fun k _ => by rw [← hd k, ← hwd k]
  · exact Finset.sum_congr rfl fun k _ => by rw [← ha k, ← hwe k]

end EdgeMessage

end
-- ==== Proof.BlockMessage.lean ====
/-
  What the kernel body computes on one block of 16000 edges, read at an entry.

  The body loads the block's source rows `x0`, destination rows `x1` and attribute rows `x2`, the three weight
  blocks `x3`, `x4`, `x5`, the bias row `x6`, the second weight matrix `x7` and the second bias row `x8`.  At the
  ideal values a change of float format is the identity and a matrix product into the zero splat is the plain sum
  of products, so entry `(p, q)` of what it stores is the message of edge `p` of the block at output feature `q`:
  the three partial products added in the body's order, the bias row laid along every row, the maximum with zero,
  the product with `x7`, the second bias row.
-/
import proofs.«137029_j14886356648763_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«137029_j14886356648763_2_alg».proof.Proof.LibMatmulIx
import proofs.«137029_j14886356648763_2_alg».proof.Proof.EdgeMessage

noncomputable section

namespace Cert.KernelIdeal.BlockMessage

open Cert.KernelIdeal Cert.KernelIdeal.Gen Idealize.ShloMosaic Idealize.ShloMosaic.ValueIdx

/-! ## The two contractions' coordinates -/

theorem wide_l0 (i : S16000x64.Idx) (q : dot_S16000x64_S64x64_S16000x64_1_0_0_1_n_n.contr.Idx) :
    (dot_S16000x64_S64x64_S16000x64_1_0_0_1_n_n.lhsIdx i q 0).val = (i 0).val := by
  unfold DotDims.lhsIdx
  rw [dif_neg (show ¬(0 : Fin S16000x64.rank) ∈ dot_S16000x64_S64x64_S16000x64_1_0_0_1_n_n.lhsBatch by decide),
    dif_pos (show (0 : Fin S16000x64.rank) ∈ dot_S16000x64_S64x64_S16000x64_1_0_0_1_n_n.lhsNonContracting by decide)]
  rfl
theorem wide_l1 (i : S16000x64.Idx) (q : dot_S16000x64_S64x64_S16000x64_1_0_0_1_n_n.contr.Idx) :
    (dot_S16000x64_S64x64_S16000x64_1_0_0_1_n_n.lhsIdx i q 1).val = (q ⟨0, by decide⟩).val :=
  dot_S16000x64_S64x64_S16000x64_1_0_0_1_n_n.lhsIdx_val_of_single rfl i q
theorem wide_r0 (i : S16000x64.Idx) (q : dot_S16000x64_S64x64_S16000x64_1_0_0_1_n_n.contr.Idx) :
    (dot_S16000x64_S64x64_S16000x64_1_0_0_1_n_n.rhsIdx i q 0).val = (q ⟨0, by decide⟩).val :=
  dot_S16000x64_S64x64_S16000x64_1_0_0_1_n_n.rhsIdx_val_of_single rfl i q
theorem wide_r1 (i : S16000x64.Idx) (q : dot_S16000x64_S64x64_S16000x64_1_0_0_1_n_n.contr.Idx) :
    (dot_S16000x64_S64x64_S16000x64_1_0_0_1_n_n.rhsIdx i q 1).val = (i 1).val := by
  unfold DotDims.rhsIdx
  rw [dif_neg (show ¬(1 : Fin S64x64.rank) ∈ dot_S16000x64_S64x64_S16000x64_1_0_0_1_n_n.rhsBatch by decide),
    dif_pos (show (1 : Fin S64x64.rank) ∈ dot_S16000x64_S64x64_S16000x64_1_0_0_1_n_n.rhsNonContracting by decide)]
  rfl

theorem narrow_l0 (i : S16000x64.Idx) (q : dot_S16000x8_S8x64_S16000x64_1_0_0_1_n_n.contr.Idx) :
    (dot_S16000x8_S8x64_S16000x64_1_0_0_1_n_n.lhsIdx i q 0).val = (i 0).val := by
  unfold DotDims.lhsIdx
  rw [dif_neg (show ¬(0 : Fin S16000x8.rank) ∈ dot_S16000x8_S8x64_S16000x64_1_0_0_1_n_n.lhsBatch by decide),
    dif_pos (show (0 : Fin S16000x8.rank) ∈ dot_S16000x8_S8x64_S16000x64_1_0_0_1_n_n.lhsNonContracting by decide)]
  rfl
theorem narrow_l1 (i : S16000x64.Idx) (q : dot_S16000x8_S8x64_S16000x64_1_0_0_1_n_n.contr.Idx) :
    (dot_S16000x8_S8x64_S16000x64_1_0_0_1_n_n.lhsIdx i q 1).val = (q ⟨0, by decide⟩).val :=
  dot_S16000x8_S8x64_S16000x64_1_0_0_1_n_n.lhsIdx_val_of_single rfl i q
theorem narrow_r0 (i : S16000x64.Idx) (q : dot_S16000x8_S8x64_S16000x64_1_0_0_1_n_n.contr.Idx) :
    (dot_S16000x8_S8x64_S16000x64_1_0_0_1_n_n.rhsIdx i q 0).val = (q ⟨0, by decide⟩).val :=
  dot_S16000x8_S8x64_S16000x64_1_0_0_1_n_n.rhsIdx_val_of_single rfl i q
theorem narrow_r1 (i : S16000x64.Idx) (q : dot_S16000x8_S8x64_S16000x64_1_0_0_1_n_n.contr.Idx) :
    (dot_S16000x8_S8x64_S16000x64_1_0_0_1_n_n.rhsIdx i q 1).val = (i 1).val := by
  unfold DotDims.rhsIdx
  rw [dif_neg (show ¬(1 : Fin S8x64.rank) ∈ dot_S16000x8_S8x64_S16000x64_1_0_0_1_n_n.rhsBatch by decide),
    dif_pos (show (1 : Fin S8x64.rank) ∈ dot_S16000x8_S8x64_S16000x64_1_0_0_1_n_n.rhsNonContracting by decide)]
  rfl

/-- A block of rows against a 64 × 64 matrix, into the zero splat, at `(p, q)`: row `p` times column `q`. -/
theorem wide_apply {φ₁ φ₂ : FTy} (x : FVec Ideal S16000x64 φ₁) (w : FVec Ideal S64x64 φ₂) (p : Fin 16000) (q : Fin 64) :
    matmul dot_S16000x64_S64x64_S16000x64_1_0_0_1_n_n none x w (constant (F := Ideal) S16000x64 .f32 0x00000000#32) (ix2 p q)
      = ∑ k : Fin 64, x (ix2 p k) * w (ix2 k q) :=
  MatmulIx.matmul_zero_ix2 dot_S16000x64_S64x64_S16000x64_1_0_0_1_n_n rfl rfl wide_l0 wide_l1 wide_r0 wide_r1 none x w p q

/-- A block of 8-column rows against an 8 × 64 matrix, into the zero splat, at `(p, q)`. -/
theorem narrow_apply {φ₁ φ₂ : FTy} (x : FVec Ideal S16000x8 φ₁) (w : FVec Ideal S8x64 φ₂) (p : Fin 16000) (q : Fin 64) :
    matmul dot_S16000x8_S8x64_S16000x64_1_0_0_1_n_n none x w (constant (F := Ideal) S16000x64 .f32 0x00000000#32) (ix2 p q)
      = ∑ k : Fin 8, x (ix2 p k) * w (ix2 k q) :=
  MatmulIx.matmul_zero_ix2 dot_S16000x8_S8x64_S16000x64_1_0_0_1_n_n rfl rfl narrow_l0 narrow_l1 narrow_r0 narrow_r1 none x w p q

/-! ## The stored value at an entry -/

/-- Entry `(p, q)` of what the body stores is the message of the block's edge `p` at output feature `q`. -/
theorem payload_apply (x0 x1 : Vec Ideal S16000x64 .bf16) (x2 : Vec Ideal S16000x8 .bf16) (x3 x4 : Vec Ideal S64x64 .f32)
    (x5 : Vec Ideal S8x64 .f32) (x6 : Vec Ideal S1x64 .f32) (x7 : Vec Ideal S64x64 .f32) (x8 : Vec Ideal S1x64 .f32)
    (p : Fin 16000) (q : Fin 64) :
    k0_pay1 (F := Ideal) x0 x1 x2 x3 x4 x5 x6 x7 x8 (ix2 p q)
      = EdgeMessage.edgeMsg (E := 16000) x0 x1 x2 x3 x4 x5 x6 x7 x8 (ix2 p q) := by
  unfold k0_pay1
  show _ = (∑ j : Fin 64, max (EdgeMessage.hidden (E := 16000) x0 x1 x2 x3 x4 x5 p j + x6 (ix2 (0 : Fin 1) j))
      (Ideal.ofBits .f32 0x00000000#32) * x7 (ix2 j q)) + x8 (ix2 (0 : Fin 1) q)
  rw [addf_apply, wide_apply, broadcastTo_1b_ab_apply]
  refine congrArg₂ (· + ·) (Finset.sum_congr rfl fun j _ => ?_) (congrFun (shapeCast_self x8 _) _)
  rw [truncf_apply, truncf_apply, maximumf_apply, broadcast_apply, addf_apply, addf_apply, addf_apply, wide_apply,
    wide_apply, narrow_apply, broadcastTo_1b_ab_apply]
  simp only [shapeCast_self, truncf_apply]
  rfl

end Cert.KernelIdeal.BlockMessage

end
-- ==== Proof.ArrayMessage.lean ====
/-
  The array of messages the kernel leaves, from the blocks its fifty grid points write back.

  Grid point `t` stages rows `16000·t … 16000·t + 15999` of the gathered source rows, the gathered destination rows
  and the edge attributes, and the whole of the three weight blocks, the two bias rows and the second weight matrix;
  it writes back rows `16000·t … 16000·t + 15999` of the result.  The message of an edge reads that edge's rows
  only, so what point `t` writes back is block `t` of ONE array — the messages of all 800000 edges computed from
  the arrays as the region finds them — and the fifty blocks tile that array.
-/
import proofs.«137029_j14886356648763_2_alg».proof.Proof.Gen.KernelIdeal.Frame
import proofs.«137029_j14886356648763_2_alg».proof.Proof.BlockMessage

noncomputable section

namespace Cert.KernelIdeal.ArrayMessage

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem origin : (![0, 0] : Fin 2 → Nat) = fun _ => 0 := funext fun a => by fin_cases a <;> rfl

/-- The messages of all edges, from the arrays as the region finds them. -/
def messages (c : Dev nD) : S800000x64.Idx → EReal :=
  EdgeMessage.edgeMsg (E := 800000) (V m c main_v12) (V m c main_v19) (V m c main_v5) (V m c main_v20) (V m c main_v21)
    (V m c main_v22) (V m c main_v23) (V m c main_arg5) (V m c main_v24)

/-- The printed index maps over the grid: the three edge-indexed inputs and the output are at block row `t`, the six
    resident operands at their one block. -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- Row `p` of window 0's block at point `t` is row `16000·t + p` of its array. -/
theorem block0_apply (c : Dev nD) (t : Fin cfg0.N) (p : Fin 16000) (k : Fin 64) (hrow : t.val * 16000 + p.val < 800000) :
    iblk m c 0 t (ix2 p k) = V m c main_v12 (ix2 (⟨t.val * 16000 + p.val, hrow⟩ : Fin 800000) k) := by
  obtain ⟨e00, e01, e10, e11, e20, e21, -⟩ := block_index t
  show V m c main_v12 (((cfg0.win 0).blk t).view.emb (ix2 p k)) = V m c main_v12 (ix2 _ k)
  refine congrArg _ (funext fun a => Fin.ext ?_)
  match a with
  | ⟨0, _⟩ => show win0_0.index t (0 : Fin 2) * 16000 + 1 * p.val = t.val * 16000 + p.val; omega
  | ⟨1, _⟩ => show win0_0.index t (1 : Fin 2) * 64 + 1 * k.val = k.val; omega

/-- Row `p` of window 1's block at point `t` is row `16000·t + p` of its array. -/
theorem block1_apply (c : Dev nD) (t : Fin cfg0.N) (p : Fin 16000) (k : Fin 64) (hrow : t.val * 16000 + p.val < 800000) :
    iblk m c 1 t (ix2 p k) = V m c main_v19 (ix2 (⟨t.val * 16000 + p.val, hrow⟩ : Fin 800000) k) := by
  obtain ⟨e00, e01, e10, e11, e20, e21, -⟩ := block_index t
  show V m c main_v19 (((cfg0.win 1).blk t).view.emb (ix2 p k)) = V m c main_v19 (ix2 _ k)
  refine congrArg _ (funext fun a => Fin.ext ?_)
  match a with
  | ⟨0, _⟩ => show win0_1.index t (0 : Fin 2) * 16000 + 1 * p.val = t.val * 16000 + p.val; omega
  | ⟨1, _⟩ => show win0_1.index t (1 : Fin 2) * 64 + 1 * k.val = k.val; omega

/-- Row `p` of window 2's block at point `t` is row `16000·t + p` of its array. -/
theorem block2_apply (c : Dev nD) (t : Fin cfg0.N) (p : Fin 16000) (k : Fin 8) (hrow : t.val * 16000 + p.val < 800000) :
    iblk m c 2 t (ix2 p k) = V m c main_v5 (ix2 (⟨t.val * 16000 + p.val, hrow⟩ : Fin 800000) k) := by
  obtain ⟨e00, e01, e10, e11, e20, e21, -⟩ := block_index t
  show V m c main_v5 (((cfg0.win 2).blk t).view.emb (ix2 p k)) = V m c main_v5 (ix2 _ k)
  refine congrArg _ (funext fun a => Fin.ext ?_)
  match a with
  | ⟨0, _⟩ => show win0_2.index t (0 : Fin 2) * 16000 + 1 * p.val = t.val * 16000 + p.val; omega
  | ⟨1, _⟩ => show win0_2.index t (1 : Fin 2) * 8 + 1 * k.val = k.val; omega

/-- Window 3's one block is its whole array. -/
theorem block3_apply (c : Dev nD) (t : Fin cfg0.N) (k : Fin 64) (j : Fin 64) :
    iblk m c 3 t (ix2 k j) = V m c main_v20 (ix2 k j) := by
  obtain ⟨-, -, -, -, -, -, e30, e31, e40, e41, e50, e51, e60, e61, e70, e71, e80, e81, -⟩ := block_index t
  show V m c main_v20 (((cfg0.win 3).blk t).view.emb (ix2 k j)) = V m c main_v20 (ix2 k j)
  refine congrArg _ (funext fun a => Fin.ext ?_)
  match a with
  | ⟨0, _⟩ => show win0_3.index t (0 : Fin 2) * 64 + 1 * k.val = k.val; omega
  | ⟨1, _⟩ => show win0_3.index t (1 : Fin 2) * 64 + 1 * j.val = j.val; omega

/-- Window 4's one block is its whole array. -/
theorem block4_apply (c : Dev nD) (t : Fin cfg0.N) (k : Fin 64) (j : Fin 64) :
    iblk m c 4 t (ix2 k j) = V m c main_v21 (ix2 k j) := by
  obtain ⟨-, -, -, -, -, -, e30, e31, e40, e41, e50, e51, e60, e61, e70, e71, e80, e81, -⟩ := block_index t
  show V m c main_v21 (((cfg0.win 4).blk t).view.emb (ix2 k j)) = V m c main_v21 (ix2 k j)
  refine congrArg _ (funext fun a => Fin.ext ?_)
  match a with
  | ⟨0, _⟩ => show win0_4.index t (0 : Fin 2) * 64 + 1 * k.val = k.val; omega
  | ⟨1, _⟩ => show win0_4.index t (1 : Fin 2) * 64 + 1 * j.val = j.val; omega

/-- Window 5's one block is its whole array. -/
theorem block5_apply (c : Dev nD) (t : Fin cfg0.N) (k : Fin 8) (j : Fin 64) :
    iblk m c 5 t (ix2 k j) = V m c main_v22 (ix2 k j) := by
  obtain ⟨-, -, -, -, -, -, e30, e31, e40, e41, e50, e51, e60, e61, e70, e71, e80, e81, -⟩ := block_index t
  show V m c main_v22 (((cfg0.win 5).blk t).view.emb (ix2 k j)) = V m c main_v22 (ix2 k j)
  refine congrArg _ (funext fun a => Fin.ext ?_)
  match a with
  | ⟨0, _⟩ => show win0_5.index t (0 : Fin 2) * 8 + 1 * k.val = k.val; omega
  | ⟨1, _⟩ => show win0_5.index t (1 : Fin 2) * 64 + 1 * j.val = j.val; omega

/-- Window 6's one block is its whole array. -/
theorem block6_apply (c : Dev nD) (t : Fin cfg0.N) (k : Fin 1) (j : Fin 64) :
    iblk m c 6 t (ix2 k j) = V m c main_v23 (ix2 k j) := by
  obtain ⟨-, -, -, -, -, -, e30, e31, e40, e41, e50, e51, e60, e61, e70, e71, e80, e81, -⟩ := block_index t
  show V m c main_v23 (((cfg0.win 6).blk t).view.emb (ix2 k j)) = V m c main_v23 (ix2 k j)
  refine congrArg _ (funext fun a => Fin.ext ?_)
  match a with
  | ⟨0, _⟩ => show win0_6.index t (0 : Fin 2) * 1 + 1 * k.val = k.val; omega
  | ⟨1, _⟩ => show win0_6.index t (1 : Fin 2) * 64 + 1 * j.val = j.val; omega

/-- Window 7's one block is its whole array. -/
theorem block7_apply (c : Dev nD) (t : Fin cfg0.N) (k : Fin 64) (j : Fin 64) :
    iblk m c 7 t (ix2 k j) = V m c main_arg5 (ix2 k j) := by
  obtain ⟨-, -, -, -, -, -, e30, e31, e40, e41, e50, e51, e60, e61, e70, e71, e80, e81, -⟩ := block_index t
  show V m c main_arg5 (((cfg0.win 7).blk t).view.emb (ix2 k j)) = V m c main_arg5 (ix2 k j)
  refine congrArg _ (funext fun a => Fin.ext ?_)
  match a with
  | ⟨0, _⟩ => show win0_7.index t (0 : Fin 2) * 64 + 1 * k.val = k.val; omega
  | ⟨1, _⟩ => show win0_7.index t (1 : Fin 2) * 64 + 1 * j.val = j.val; omega

/-- Window 8's one block is its whole array. -/
theorem block8_apply (c : Dev nD) (t : Fin cfg0.N) (k : Fin 1) (j : Fin 64) :
    iblk m c 8 t (ix2 k j) = V m c main_v24 (ix2 k j) := by
  obtain ⟨-, -, -, -, -, -, e30, e31, e40, e41, e50, e51, e60, e61, e70, e71, e80, e81, -⟩ := block_index t
  show V m c main_v24 (((cfg0.win 8).blk t).view.emb (ix2 k j)) = V m c main_v24 (ix2 k j)
  refine congrArg _ (funext fun a => Fin.ext ?_)
  match a with
  | ⟨0, _⟩ => show win0_8.index t (0 : Fin 2) * 1 + 1 * k.val = k.val; omega
  | ⟨1, _⟩ => show win0_8.index t (1 : Fin 2) * 64 + 1 * j.val = j.val; omega

/-- Entry `(p, q)` of the output's block at point `t` sits at row `16000·t + p`, column `q` of the array. -/
theorem out_emb (t : Fin cfg0.N) (p : Fin 16000) (q : Fin 64) (hrow : t.val * 16000 + p.val < 800000) :
    ((cfg0.win 9).blk t).view.emb (ix2 p q) = ix2 (⟨t.val * 16000 + p.val, hrow⟩ : Fin 800000) q := by
  obtain ⟨-, -, -, -, -, -, -, -, -, -, -, -, -, -, -, -, -, -, e90, e91⟩ := block_index t
  funext a; apply Fin.ext
  match a with
  | ⟨0, _⟩ => show win0_9.index t (0 : Fin 2) * 16000 + 1 * p.val = t.val * 16000 + p.val; omega
  | ⟨1, _⟩ => show win0_9.index t (1 : Fin 2) * 64 + 1 * q.val = q.val; omega

/-- What point `t` writes back is block `t` of the messages of all edges. -/
theorem flushed_eq (c : Dev nD) (t : Fin cfg0.N) :
    (dats m 0 c).flushed 9 t = ((cfg0.win 9).blk t).view.read (Elt Ideal) (messages m c) := by
  show (cfg0.win 9).cut (grid0.coords t) ((dats m 0 c).after 9 t) = _
  rw [after0_9]
  unfold out0_9
  rw [View.canon_unit_zero origin]
  simp only [View.ld_unit_zero (S := S16000x64) origin, View.ld_unit_zero (S := S16000x8) origin,
    View.ld_unit_zero (S := S64x64) origin, View.ld_unit_zero (S := S8x64) origin, View.ld_unit_zero (S := S1x64) origin]
  funext y
  obtain ⟨p, q, rfl⟩ : ∃ (p : Fin 16000) (q : Fin 64), (y : S16000x64.Idx) = ix2 p q :=
    ⟨y 0, y 1, eq_ix2 (n0 := 16000) (n1 := 64) y⟩
  show k0_pay1 (F := Ideal) (iblk m c 0 t) (iblk m c 1 t) (iblk m c 2 t) (iblk m c 3 t) (iblk m c 4 t) (iblk m c 5 t)
      (iblk m c 6 t) (iblk m c 7 t) (iblk m c 8 t) (ix2 p q)
    = messages m c (((cfg0.win 9).blk t).view.emb (ix2 p q))
  refine (BlockMessage.payload_apply (iblk m c 0 t) (iblk m c 1 t) (iblk m c 2 t) (iblk m c 3 t) (iblk m c 4 t)
    (iblk m c 5 t) (iblk m c 6 t) (iblk m c 7 t) (iblk m c 8 t) p q).trans ?_
  have ht : t.val < 50 := lt_of_lt_of_eq t.isLt N_0
  have hp : p.val < 16000 := p.isLt
  have hrow : t.val * 16000 + p.val < 800000 := by omega
  refine Eq.trans ?_ (congrArg (messages m c) (out_emb t p q hrow)).symm
  unfold messages
  exact EdgeMessage.edgeMsg_rows (V m c main_v12) (V m c main_v19) (V m c main_v5) (V m c main_v20) (V m c main_v21)
    (V m c main_v22) (V m c main_v23) (V m c main_arg5) (V m c main_v24)
    (iblk m c 0 t) (iblk m c 1 t) (iblk m c 2 t) (iblk m c 3 t) (iblk m c 4 t) (iblk m c 5 t) (iblk m c 6 t)
    (iblk m c 7 t) (iblk m c 8 t) p ⟨t.val * 16000 + p.val, hrow⟩ q
    (fun k => block0_apply m c t p k hrow) (fun k => block1_apply m c t p k hrow) (fun k => block2_apply m c t p k hrow)
    (fun k j => block3_apply m c t k j) (fun k j => block4_apply m c t k j) (fun k j => block5_apply m c t k j)
    (fun j => block6_apply m c t 0 j) (fun k j => block7_apply m c t k j) (fun j => block8_apply m c t 0 j)

/-- An index of the result array is in point `t`'s block iff each coordinate is in the block's range on its axis. -/
theorem mem_block (t : Fin cfg0.N) (i : S800000x64.Idx) :
    i ∈ ((cfg0.win 9).blk t).view.set ↔ ∀ a : Fin 2, win0_9.index t a * S16000x64.size a ≤ (i a).val
      ∧ (i a).val < win0_9.index t a * S16000x64.size a + S16000x64.size a := by
  show i ∈ ((View.whole main_v25).slice (win0_9.rect t)).set ↔ _
  rw [View.set_slice_whole, Rect.mem_set_unit]
  exact Iff.rfl

/-- The fifty blocks tile the result array: row `r` is in the block of point `r / 16000`. -/
theorem cover (i : S800000x64.Idx) :
    ∃ t : Fin cfg0.N, (cfg0.win 9).flush t = true ∧ i ∈ ((cfg0.win 9).blk t).view.set := by
  have hi0 : (i 0).val < 800000 := (i 0).isLt
  have hi1 : (i 1).val < 64 := (i 1).isLt
  have hN : cfg0.N = 50 := N_0
  have hlt : (i 0).val / 16000 < cfg0.N := by rw [hN]; omega
  obtain ⟨-, -, -, -, -, -, -, -, -, -, -, -, -, -, -, -, -, -, e90, e91⟩ := block_index ⟨(i 0).val / 16000, hlt⟩
  have e90' : win0_9.index ⟨(i 0).val / 16000, hlt⟩ (0 : Fin 2) = (i 0).val / 16000 := e90
  refine ⟨⟨(i 0).val / 16000, hlt⟩, flush0_9 _, ?_⟩
  rw [mem_block]
  intro a
  match a with
  | ⟨0, _⟩ =>
    show win0_9.index ⟨(i 0).val / 16000, hlt⟩ (0 : Fin 2) * 16000 ≤ (i 0).val
      ∧ (i 0).val < win0_9.index ⟨(i 0).val / 16000, hlt⟩ (0 : Fin 2) * 16000 + 16000
    omega
  | ⟨1, _⟩ =>
    show win0_9.index ⟨(i 0).val / 16000, hlt⟩ (1 : Fin 2) * 64 ≤ (i 1).val
      ∧ (i 1).val < win0_9.index ⟨(i 0).val / 16000, hlt⟩ (1 : Fin 2) * 64 + 64
    omega

/-- The result array after the region: the messages of all edges. -/
theorem array_eq (c : Dev nD) : (dats m 0 c).arrAt 9 cfg0.N = messages m c :=
  (dats m 0 c).arrAt_eq_of_cover 9 (messages m c) (fun t _ => flushed_eq m c t) cover

end Cert.KernelIdeal.ArrayMessage

end
-- ==== Proof.HostTerms.lean ====
/-
  The host program around the kernel, as functions of the argument arrays.

  `edge_index` has two rows: the source node of every edge (`srcOf`) and its destination node (`dstOf`).  A node
  position is read as a signed number, a negative one is moved up by the number of nodes, and the positions are laid
  out as a column (`column`); `rowsAt x i` gathers, for every edge, the row of the node-feature table `x` at its
  position.  The first weight matrix is cut into its rows 0–63, 64–127 and 128–135 (`w1Src`, `w1Dst`, `w1Attr`);
  a bias vector becomes a one-row matrix (`biasRow`).  `messagesOf` is the array of all edges' messages from these,
  and `aggregate` adds every edge's message into the row of its destination node, starting from zero: the result.
-/
import proofs.«137029_j14886356648763_2_alg».proof.Proof.Gen.KernelIdeal
import Idealize.ShloMosaic.PureOps.Ideal
import proofs.«137029_j14886356648763_2_alg».proof.Proof.EdgeMessage

noncomputable section

namespace Cert.KernelIdeal.HostTerms

open Cert.KernelIdeal Cert.KernelIdeal.Gen Idealize.ShloMosaic

/-- The source node of every edge: row 0 of `edge_index`. -/
def srcOf (x1 : (⟨S2x800000, .i32⟩ : BufTy).Contents (Elt Ideal)) : (⟨S800000, .i32⟩ : BufTy).Contents (Elt Ideal) :=
  shapeCast S800000 (extractStridedSlice S1x800000 ![0, 0] x1 slices_S2x800000_S1x800000_0_0) shapeCasts_S1x800000_S800000

/-- The destination node of every edge: row 1 of `edge_index`. -/
def dstOf (x1 : (⟨S2x800000, .i32⟩ : BufTy).Contents (Elt Ideal)) : (⟨S800000, .i32⟩ : BufTy).Contents (Elt Ideal) :=
  shapeCast S800000 (extractStridedSlice S1x800000 ![1, 0] x1 slices_S2x800000_S1x800000_1_0) shapeCasts_S1x800000_S800000

/-- Node positions as a column, a negative one moved up by the number of nodes. -/
def column (i : (⟨S800000, .i32⟩ : BufTy).Contents (Elt Ideal)) : (⟨S800000x1, .i32⟩ : BufTy).Contents (Elt Ideal) :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- For every edge, the row of the table `x0` at the edge's node position. -/
def rowsAt (x0 : (⟨S50000x64, .f32⟩ : BufTy).Contents (Elt Ideal)) (i : (⟨S800000, .i32⟩ : BufTy).Contents (Elt Ideal)) :
    (⟨S800000x64, .f32⟩ : BufTy).Contents (Elt Ideal) :=
  Host.gather gather_S50000x64_S800000x1_S800000x64_1_0_n_n_0_1_164 x0 (column i)

/-- Rows 0–63 of the first weight matrix: the block the source row meets. -/
def w1Src (x3 : (⟨S136x64, .f32⟩ : BufTy).Contents (Elt Ideal)) : (⟨S64x64, .f32⟩ : BufTy).Contents (Elt Ideal) :=
  extractStridedSlice S64x64 ![0, 0] x3 slices_S136x64_S64x64_0_0

/-- Rows 64–127: the block the destination row meets. -/
def w1Dst (x3 : (⟨S136x64, .f32⟩ : BufTy).Contents (Elt Ideal)) : (⟨S64x64, .f32⟩ : BufTy).Contents (Elt Ideal) :=
  extractStridedSlice S64x64 ![64, 0] x3 slices_S136x64_S64x64_64_0

/-- Rows 128–135: the block the attribute row meets. -/
def w1Attr (x3 : (⟨S136x64, .f32⟩ : BufTy).Contents (Elt Ideal)) : (⟨S8x64, .f32⟩ : BufTy).Contents (Elt Ideal) :=
  extractStridedSlice S8x64 ![128, 0] x3 slices_S136x64_S8x64_128_0

/-- A bias vector as a one-row matrix. -/
def biasRow (x : (⟨S64, .f32⟩ : BufTy).Contents (Elt Ideal)) : (⟨S1x64, .f32⟩ : BufTy).Contents (Elt Ideal) :=
  shapeCast S1x64 x shapeCasts_S64_S1x64

/-- The messages of all edges, from the argument arrays. -/
def messagesOf (x0 : (⟨S50000x64, .f32⟩ : BufTy).Contents (Elt Ideal)) (x1 : (⟨S2x800000, .i32⟩ : BufTy).Contents (Elt Ideal))
    (x2 : (⟨S800000x8, .f32⟩ : BufTy).Contents (Elt Ideal)) (x3 : (⟨S136x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal)) : (⟨S800000x64, .f32⟩ : BufTy).Contents (Elt Ideal) :=
  EdgeMessage.edgeMsg (E := 800000) (rowsAt x0 (srcOf x1)) (rowsAt x0 (dstOf x1)) x2 (w1Src x3) (w1Dst x3) (w1Attr x3)
    (biasRow x4) x5 (biasRow x6)

/-- Every edge's message added into the row of its destination node, from zero. -/
def aggregate (x1 : (⟨S2x800000, .i32⟩ : BufTy).Contents (Elt Ideal))
    (msg : (⟨S800000x64, .f32⟩ : BufTy).Contents (Elt Ideal)) : (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 (dstOf x1)) msg

end Cert.KernelIdeal.HostTerms

end
-- ==== Proof.HostBefore.lean ====
/-
  What the host lines before the kernel leave in the arrays it stages.

  The kernel's nine input windows stage: the gathered source rows and destination rows of the node-feature table, the
  edge attributes, the three row blocks of the first weight matrix, the first bias as a one-row matrix, the second
  weight matrix (an argument, untouched) and the second bias as a one-row matrix.  The table and the attributes go
  through a change of float format first, which at the ideal values is the identity.  The destination positions are
  also what the lines after the kernel scatter by.
-/
import proofs.«137029_j14886356648763_2_alg».proof.Proof.Gen.KernelIdeal.Frame
import proofs.«137029_j14886356648763_2_alg».proof.Proof.HostTerms
import Idealize.ShloMosaic.Lib.StableHlo.Run

noncomputable section

namespace Cert.KernelIdeal.HostBefore

open Cert.KernelIdeal Cert.KernelIdeal.Gen Cert.KernelIdeal.HostTerms Idealize.ShloMosaic Idealize.ShloMosaic.TcCoe
open Idealize.SL.Sem Idealize.ShloMosaic.StableHlo

variable (m : (ℓ : Loc nD τ sig) → Buf (Elt Ideal) ℓ)

/-- The destination positions. -/
theorem dst_eq (c : Dev nD) : V m c main_v3 = dstOf (m ((c : Thread nD τ).loc main_arg1)) := by
  show StableHlo.after hostOps0 (fun b => m (c, b)) (Proc.devRef .tc main_v3) = _
  after_results
  rfl

/-- Window 0's array: every edge's source row. -/
theorem srcRows_eq (c : Dev nD) : V m c main_v12 = rowsAt (m ((c : Thread nD τ).loc main_arg0)) (srcOf (m ((c : Thread nD τ).loc main_arg1))) := by
  show StableHlo.after hostOps0 (fun b => m (c, b)) (Proc.devRef .tc main_v12) = _
  after_results_simp
  rfl

/-- Window 1's array: every edge's destination row. -/
theorem dstRows_eq (c : Dev nD) : V m c main_v19 = rowsAt (m ((c : Thread nD τ).loc main_arg0)) (dstOf (m ((c : Thread nD τ).loc main_arg1))) := by
  show StableHlo.after hostOps0 (fun b => m (c, b)) (Proc.devRef .tc main_v19) = _
  after_results_simp
  rfl

/-- Window 2's array: the edge attributes. -/
theorem attr_eq (c : Dev nD) : V m c main_v5 = (m ((c : Thread nD τ).loc main_arg2)) := by
  show StableHlo.after hostOps0 (fun b => m (c, b)) (Proc.devRef .tc main_v5) = _
  after_results
  rfl

/-- Window 3's array: rows 0–63 of the first weight matrix. -/
theorem w1Src_eq (c : Dev nD) : V m c main_v20 = w1Src (m ((c : Thread nD τ).loc main_arg3)) := by
  show StableHlo.after hostOps0 (fun b => m (c, b)) (Proc.devRef .tc main_v20) = _
  after_results
  rfl

/-- Window 4's array: rows 64–127. -/
theorem w1Dst_eq (c : Dev nD) : V m c main_v21 = w1Dst (m ((c : Thread nD τ).loc main_arg3)) := by
  show StableHlo.after hostOps0 (fun b => m (c, b)) (Proc.devRef .tc main_v21) = _
  after_results
  rfl

/-- Window 5's array: rows 128–135. -/
theorem w1Attr_eq (c : Dev nD) : V m c main_v22 = w1Attr (m ((c : Thread nD τ).loc main_arg3)) := by
  show StableHlo.after hostOps0 (fun b => m (c, b)) (Proc.devRef .tc main_v22) = _
  after_results
  rfl

/-- Window 6's array: the first bias as a row. -/
theorem bias1_eq (c : Dev nD) : V m c main_v23 = biasRow (m ((c : Thread nD τ).loc main_arg4)) := by
  show StableHlo.after hostOps0 (fun b => m (c, b)) (Proc.devRef .tc main_v23) = _
  after_results
  rfl

/-- Window 8's array: the second bias as a row. -/
theorem bias2_eq (c : Dev nD) : V m c main_v24 = biasRow (m ((c : Thread nD τ).loc main_arg6)) := by
  show StableHlo.after hostOps0 (fun b => m (c, b)) (Proc.devRef .tc main_v24) = _
  after_results
  rfl

end Cert.KernelIdeal.HostBefore

end
-- ==== Proof.KernelResult.lean ====
/-
  The idealized kernel program's run, read: its result is every edge's message added into the row of the edge's
  destination node.

  After the region the result window's array holds the messages of all edges (the fifty blocks tile it), computed from
  the arrays the host lines before the region left — which are the gathered rows, the attributes, the three row blocks
  of the first weight matrix and the two bias rows of the arguments.  The host lines after the region scatter that
  array by the destination positions into zeros.
-/
import proofs.«137029_j14886356648763_2_alg».proof.Proof.ArrayMessage
import proofs.«137029_j14886356648763_2_alg».proof.Proof.HostBefore

noncomputable section

namespace Cert.KernelIdeal.Result

open Cert.KernelIdeal Cert.KernelIdeal.Gen Cert.KernelIdeal.HostTerms Idealize.ShloMosaic Idealize.ShloMosaic.TcCoe
open Idealize.SL.Sem Idealize.ShloMosaic.StableHlo

variable (m : (ℓ : Loc nD τ sig) → Buf (Elt Ideal) ℓ) (ρ : Dev nD → PrngReg)

/-- The messages computed from the arrays as the region finds them are the messages of the arguments. -/
theorem messages_eq (c : Dev nD) : ArrayMessage.messages m c = messagesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  unfold ArrayMessage.messages messagesOf
  rw [HostBefore.srcRows_eq m c, HostBefore.dstRows_eq m c, HostBefore.attr_eq m c, HostBefore.w1Src_eq m c,
    HostBefore.w1Dst_eq m c, HostBefore.w1Attr_eq m c, HostBefore.bias1_eq m c, V_main_arg5 m c, HostBefore.bias2_eq m c]

/-- What the lines after the region leave in the result buffer. -/
theorem tail_eq (c : Dev nD) :
    Pipeline.afterTail₀ cfgs (dats m) 0 (V0 m) [hostOps1] c main_v28 = aggregate (m ((c.tc : Thread nD τ).loc main_arg1)) (messagesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))) := by
  unfold Pipeline.afterTail₀
  show StableHlo.after hostOps1 _ (Proc.devRef .tc main_v28) = _
  after_results
  have h25 : Pipeline.withArrays (cfgs 0).spec c (V0 m c) (fun w => (dats m 0 c).arrAt w (cfgs 0).N) (Proc.devRef .tc main_v25)
      = messagesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
    (Pipeline.withArrays_arr spec0 launch0.win.arr_inj c (V0 m c) (fun w => (dats m 0 c).arrAt w cfg0.N) 9).trans
      ((ArrayMessage.array_eq m c).trans (messages_eq m c))
  have h3 : Pipeline.withArrays (cfgs 0).spec c (V0 m c) (fun w => (dats m 0 c).arrAt w (cfgs 0).N) (Proc.devRef .tc main_v3)
      = dstOf (m ((c.tc : Thread nD τ).loc main_arg1)) :=
    (Pipeline.withArrays_of_ne spec0 c (V0 m c) _ main_v3 (by exact (by decide : ∀ w, Pipeline.arrRef spec0 w ≠ main_v3))).trans
      (HostBefore.dst_eq m c)
  rw [h25, h3]
  rfl

/-- Every weakly fair execution of the idealized kernel program terminates with the result at the aggregated
    messages of the arguments, and the arguments unchanged. -/
theorem run : θ_run defs (onTc (τ := τ) (main (F := Ideal))) ⟨m, fun _ => 0, ρ⟩ fun r => ∀ c : Dev nD,
      r.2.mem ((c.tc : Thread nD τ).loc main_v28) = aggregate (m ((c.tc : Thread nD τ).loc main_arg1)) (messagesOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).2 main_v28 (Pipeline.mem_restRefs_of main_v28 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 7).trans (((dats m 0 c).arrAt_in 7 rfl _).trans ((A_eq m c 7).trans (V_main_arg5 m c))),
      ((h c).2 main_arg6 (Pipeline.mem_restRefs_of main_arg6 (by decide) (by decide))).trans (W_main_arg6 m (dats m) c)⟩)
    (run_main m ρ)

end Cert.KernelIdeal.Result

end
-- ==== Proof.LibConcat.lean ====
/-
  A concatenation of `[n, ·]` arrays along their columns read at the entry `(e, c)`: the piece whose span of columns
  holds `c` (the widths of the pieces before it add up to `pre`, and `c = pre + j` with `j` inside the piece), read
  at `(e, j)`.
-/
import Idealize.ShloMosaic.Lib.Pipeline.Value
import Idealize.ShloMosaic.Lib.ValueIdx

namespace ConcatCols

open Idealize.ShloMosaic Idealize.ShloMosaic.ValueIdx

/-- Piece `k` of a column concatenation, at `(e, pre + j)`, is the piece at `(e, j)`. -/
theorem concat_cols_apply {α : Type} {n c b' : ℕ} (xs : List ((s : Shape) × (s.Idx → α)))
    (h : Shape.Concatenates (xs.map (·.1)) (⟨2, ![n, c]⟩ : Shape) (1 : Fin 2)) (e : Fin n) (kk : Fin c)
    (k : ℕ) (hk : k < xs.length) (x₁ : (⟨2, ![n, b']⟩ : Shape).Idx → α) (hxk : xs[k] = ⟨(⟨2, ![n, b']⟩ : Shape), x₁⟩)
    (pre : ℕ)
    (hpre : (((xs.take k).map (·.1)).map fun s => if h : s.rank = (⟨2, ![n, c]⟩ : Shape).rank then s.size ((1 : Fin 2).cast h.symm) else 0).sum = pre)
    (j : Fin b') (hj : pre + j.val = kk.val) :
    concatenate (⟨2, ![n, c]⟩ : Shape) (1 : Fin 2) xs h (ix2 e kk) = x₁ (ix2 e j) :=
  concatenate_apply_piece (t := (⟨2, ![n, c]⟩ : Shape)) (1 : Fin 2) xs h (ix2 e kk) k hk (⟨2, ![n, b']⟩ : Shape) x₁ hxk rfl pre hpre (ix2 e j)
    (fun b hb => by
      match b with
      | ⟨0, _⟩ => rfl
      | ⟨1, _⟩ => exact absurd rfl hb)
    (show pre + j.val = kk.val from hj)

end ConcatCols
-- ==== Proof.RefMessage.lean ====
/-
  The reference computes the same messages and the same aggregation.

  The reference lays every edge's source row, destination row and attribute row side by side into one row of 136
  numbers and multiplies by the whole first weight matrix.  Column `c` of the joined row is the source row's column
  `c` for `c < 64`, the destination row's column `c − 64` for `64 ≤ c < 128`, the attribute row's column `c − 128`
  beyond; row `c` of the weight matrix is the matching row of its three row blocks.  So the one product over 136
  columns is the three partial products (`EdgeMessage.hidden_eq_joined`), and with the bias rows read entry by entry
  the reference's message array is `messagesOf` of the arguments; its last line adds the messages into the
  destination rows exactly as `aggregate` does.
-/
import proofs.«137029_j14886356648763_2_alg».proof.Proof.Gen.ReferenceIdeal.Read
import proofs.«137029_j14886356648763_2_alg».proof.Proof.HostTerms
import proofs.«137029_j14886356648763_2_alg».proof.Proof.LibConcat
import Idealize.ShloMosaic.Lib.ValueLayout

noncomputable section

namespace Cert.ReferenceIdeal.RefMessage

open Cert.ReferenceIdeal Cert.ReferenceIdeal.Gen Cert.ReferenceIdeal.Read Idealize.ShloMosaic Idealize.ShloMosaic.ValueIdx
open Cert.KernelIdeal.HostTerms

variable (x0 : (⟨S50000x64, .f32⟩ : BufTy).Contents (Elt Ideal)) (x1 : (⟨S2x800000, .i32⟩ : BufTy).Contents (Elt Ideal))
    (x2 : (⟨S800000x8, .f32⟩ : BufTy).Contents (Elt Ideal)) (x3 : (⟨S136x64, .f32⟩ : BufTy).Contents (Elt Ideal))
    (x4 : (⟨S64, .f32⟩ : BufTy).Contents (Elt Ideal)) (x5 : (⟨S64x64, .f32⟩ : BufTy).Contents (Elt Ideal))
    (x6 : (⟨S64, .f32⟩ : BufTy).Contents (Elt Ideal))

/-! ## The shared host lines -/

/-- The reference gathers the same source rows. -/
theorem srcRows_eq : val_main_v10 (F := Ideal) x0 x1 = rowsAt x0 (srcOf x1) := rfl

/-- The reference gathers the same destination rows. -/
theorem dstRows_eq : val_main_v17 (F := Ideal) x0 x1 = rowsAt x0 (dstOf x1) := rfl

/-! ## The joined row and the stacked weights, entry by entry -/

theorem joined_src (e : Fin 800000) (k : Fin 64) :
    val_main_v18 (F := Ideal) x0 x1 x2 (ix2 e (⟨k.val, by omega⟩ : Fin 136)) = rowsAt x0 (srcOf x1) (ix2 e k) := by
  unfold val_main_v18
  exact (ConcatCols.concat_cols_apply
    [⟨S800000x64, val_main_v10 (F := Ideal) x0 x1⟩, ⟨S800000x64, val_main_v17 (F := Ideal) x0 x1⟩, ⟨S800000x8, x2⟩]
    concatenates_S800000x64_S800000x64_S800000x8_S800000x136_d1 e ⟨k.val, by omega⟩ 0 (by show 0 < 3; omega)
    (val_main_v10 (F := Ideal) x0 x1) rfl 0 rfl k (by show 0 + k.val = k.val; omega)).trans
    (congrFun (srcRows_eq x0 x1) _)

theorem joined_dst (e : Fin 800000) (k : Fin 64) :
    val_main_v18 (F := Ideal) x0 x1 x2 (ix2 e (⟨64 + k.val, by omega⟩ : Fin 136)) = rowsAt x0 (dstOf x1) (ix2 e k) := by
  unfold val_main_v18
  exact (ConcatCols.concat_cols_apply
    [⟨S800000x64, val_main_v10 (F := Ideal) x0 x1⟩, ⟨S800000x64, val_main_v17 (F := Ideal) x0 x1⟩, ⟨S800000x8, x2⟩]
    concatenates_S800000x64_S800000x64_S800000x8_S800000x136_d1 e ⟨64 + k.val, by omega⟩ 1 (by show 1 < 3; omega)
    (val_main_v17 (F := Ideal) x0 x1) rfl 64 rfl k rfl).trans
    (congrFun (dstRows_eq x0 x1) _)

theorem joined_attr (e : Fin 800000) (k : Fin 8) :
    val_main_v18 (F := Ideal) x0 x1 x2 (ix2 e (⟨128 + k.val, by omega⟩ : Fin 136)) = x2 (ix2 e k) := by
  unfold val_main_v18
  exact ConcatCols.concat_cols_apply
    [⟨S800000x64, val_main_v10 (F := Ideal) x0 x1⟩, ⟨S800000x64, val_main_v17 (F := Ideal) x0 x1⟩, ⟨S800000x8, x2⟩]
    concatenates_S800000x64_S800000x64_S800000x8_S800000x136_d1 e ⟨128 + k.val, by omega⟩ 2 (by show 2 < 3; omega)
    x2 rfl 128 rfl k rfl

theorem weight_src (k : Fin 64) (j : Fin 64) : x3 (ix2 (⟨k.val, by omega⟩ : Fin 136) j) = w1Src x3 (ix2 k j) :=
  (extractStridedSlice_apply ![0, 0] x3 Cert.KernelIdeal.Gen.slices_S136x64_S64x64_0_0 (ix2 k j) (ix2 (⟨k.val, by omega⟩ : Fin 136) j)
    (fun a => match a with
      | ⟨0, _⟩ => by show k.val = 0 + k.val; omega
      | ⟨1, _⟩ => by show j.val = 0 + j.val; omega)).symm

theorem weight_dst (k : Fin 64) (j : Fin 64) : x3 (ix2 (⟨64 + k.val, by omega⟩ : Fin 136) j) = w1Dst x3 (ix2 k j) :=
  (extractStridedSlice_apply ![64, 0] x3 Cert.KernelIdeal.Gen.slices_S136x64_S64x64_64_0 (ix2 k j) (ix2 (⟨64 + k.val, by omega⟩ : Fin 136) j)
    (fun a => match a with
      | ⟨0, _⟩ => by show 64 + k.val = 64 + k.val; rfl
      | ⟨1, _⟩ => by show j.val = 0 + j.val; omega)).symm

theorem weight_attr (k : Fin 8) (j : Fin 64) : x3 (ix2 (⟨128 + k.val, by omega⟩ : Fin 136) j) = w1Attr x3 (ix2 k j) :=
  (extractStridedSlice_apply ![128, 0] x3 Cert.KernelIdeal.Gen.slices_S136x64_S8x64_128_0 (ix2 k j) (ix2 (⟨128 + k.val, by omega⟩ : Fin 136) j)
    (fun a => match a with
      | ⟨0, _⟩ => by show 128 + k.val = 128 + k.val; rfl
      | ⟨1, _⟩ => by show j.val = 0 + j.val; omega)).symm

/-! ## The hidden layer and the messages -/

/-- The reference's hidden layer at `(e, j)`: the three partial products, the bias, the maximum with zero. -/
theorem hidden_unit (e : Fin 800000) (j : Fin 64) :
    val_main_v23 (F := Ideal) x0 x1 x2 x3 x4 (ix2 e j)
      = max (EdgeMessage.hidden (E := 800000) (rowsAt x0 (srcOf x1)) (rowsAt x0 (dstOf x1)) x2 (w1Src x3) (w1Dst x3) (w1Attr x3) e j
          + biasRow x4 (ix2 (0 : Fin 1) j)) (Ideal.ofBits .f32 0x00000000#32) := by
  rw [val_main_v23_apply, val_main_v22_apply, val_main_v19_apply, val_main_v21_apply, val_main_v20_apply,
    val_main_call0_v0_apply, val_main_call0_cst_apply]
  have hl : ∀ k : Fin 136, lidx_main_v19 (ix2 e j) k = ix2 e k := fun k => funext fun a => by
    match a with
    | ⟨0, _⟩ => rfl
    | ⟨1, _⟩ => rfl
  have hr : ∀ k : Fin 136, ridx_main_v19 (ix2 e j) k = ix2 k j := fun k => funext fun a => by
    match a with
    | ⟨0, _⟩ => rfl
    | ⟨1, _⟩ => rfl
  have hb : idx_main_v20 (idx_main_v21 (ix2 e j)) = ix1 j := funext fun a => by
    match a with
    | ⟨0, _⟩ => rfl
  simp only [hl, hr, hb]
  show max ((∑ k : Fin 136, val_main_v18 (F := Ideal) x0 x1 x2 (ix2 e k) * x3 (ix2 k j)) + x4 (ix1 j))
      (Ideal.ofBits .f32 0x00000000#32) = _
  rw [EdgeMessage.hidden_eq_joined (rowsAt x0 (srcOf x1)) (rowsAt x0 (dstOf x1)) x2 (w1Src x3) (w1Dst x3) (w1Attr x3)
    (val_main_v18 (F := Ideal) x0 x1 x2) x3 e j (joined_src x0 x1 x2 e) (joined_dst x0 x1 x2 e) (joined_attr x0 x1 x2 e)
    (fun k => weight_src x3 k j) (fun k => weight_dst x3 k j) (fun k => weight_attr x3 k j)]
  refine congrArg₂ max (congrArg₂ (· + ·) rfl ?_) rfl
  exact (shapeCast_a_1a_apply x4 Cert.KernelIdeal.Gen.shapeCasts_S64_S1x64 0 j).symm

/-- The reference's message array is `messagesOf` of the arguments. -/
theorem messages_eq : val_main_v27 (F := Ideal) x0 x1 x2 x3 x4 x5 x6 = messagesOf x0 x1 x2 x3 x4 x5 x6 := by
  funext i
  obtain ⟨e, q, rfl⟩ : ∃ (e : Fin 800000) (q : Fin 64), i = ix2 e q := ⟨i 0, i 1, eq_ix2 i⟩
  rw [val_main_v27_apply, val_main_v24_apply, val_main_v26_apply, val_main_v25_apply]
  have hl : ∀ k : Fin 64, lidx_main_v24 (ix2 e q) k = ix2 e k := fun k => funext fun a => by
    match a with
    | ⟨0, _⟩ => rfl
    | ⟨1, _⟩ => rfl
  have hr : ∀ k : Fin 64, ridx_main_v24 (ix2 e q) k = ix2 k q := fun k => funext fun a => by
    match a with
    | ⟨0, _⟩ => rfl
    | ⟨1, _⟩ => rfl
  have hb : idx_main_v25 (idx_main_v26 (ix2 e q)) = ix1 q := funext fun a => by
    match a with
    | ⟨0, _⟩ => rfl
  simp only [hl, hr, hb, hidden_unit]
  show (∑ k : Fin 64, max (EdgeMessage.hidden (E := 800000) (rowsAt x0 (srcOf x1)) (rowsAt x0 (dstOf x1)) x2 (w1Src x3)
      (w1Dst x3) (w1Attr x3) e k + biasRow x4 (ix2 (0 : Fin 1) k)) (Ideal.ofBits .f32 0x00000000#32) * x5 (ix2 k q)) + x6 (ix1 q)
    = (∑ k : Fin 64, max (EdgeMessage.hidden (E := 800000) (rowsAt x0 (srcOf x1)) (rowsAt x0 (dstOf x1)) x2 (w1Src x3)
      (w1Dst x3) (w1Attr x3) e k + biasRow x4 (ix2 (0 : Fin 1) k)) (Ideal.ofBits .f32 0x00000000#32) * x5 (ix2 k q))
      + biasRow x6 (ix2 (0 : Fin 1) q)
  exact congrArg₂ (· + ·) rfl (shapeCast_a_1a_apply x6 Cert.KernelIdeal.Gen.shapeCasts_S64_S1x64 0 q).symm

/-- The reference's result is the aggregation of those messages. -/
theorem result_eq : val_main_v30 (F := Ideal) x0 x1 x2 x3 x4 x5 x6 = aggregate x1 (messagesOf x0 x1 x2 x3 x4 x5 x6) := by
  unfold val_main_v30
  rw [messages_eq]
  rfl

end Cert.ReferenceIdeal.RefMessage

end
-- ==== Proof.lean ====
/-
  An edge-convolution layer: every edge (src, dst) of a graph with 50000 nodes and 800000 edges sends the message
      msg e = relu ([x src | x dst | attr e] · W1 + b1) · W2 + b2
  and every node sums the messages of the edges that end in it.

  The kernel program gathers the source rows and the destination rows of the node features on the host, runs one
  kernel over fifty blocks of 16000 edges that forms the hidden layer as THREE partial products — the source rows
  against rows 0–63 of W1, the destination rows against rows 64–127, the attribute rows against rows 128–135 — adds
  the bias, takes the maximum with zero, multiplies by W2 and adds the second bias, and scatters the messages into the
  destination rows on the host.  The reference joins the three rows into one row of 136 numbers and multiplies by W1
  whole.  At the ideal values (extended reals, exact operations, a change of float format the identity) the two agree
  entry by entry: a sum over 136 columns is the sum over the first 64, the next 64 and the last 8, a regrouping that
  holds in any commutative monoid, so no finiteness of the inputs is used; the gathers before and the scatter after
  are the same host operations on both sides and are never opened.

  `frame_Kernel`, `frame_KernelIdeal`: the generated frame certificates.  `frame_ReferenceIdeal`: the generated run
  of the reference with its result dropped.  `preserves`: the ideal pass rewrote nothing.  `algebraic`: the kernel
  program's result read off its frame run (`Cert.KernelIdeal.Result.run`) and the reference's read off its run
  (`Cert.ReferenceIdeal.RefMessage.result_eq`) are the same function of the arguments.
-/
import proofs.«137029_j14886356648763_2_alg».proof.Defs
import proofs.«137029_j14886356648763_2_alg».proof.Proof.Gen.Kernel
import proofs.«137029_j14886356648763_2_alg».proof.Proof.Gen.Kernel.Skeleton
import proofs.«137029_j14886356648763_2_alg».proof.Proof.Gen.Kernel.Launch
import proofs.«137029_j14886356648763_2_alg».proof.Proof.Gen.Kernel.Points
import proofs.«137029_j14886356648763_2_alg».proof.Proof.Gen.Kernel.Frame
import proofs.«137029_j14886356648763_2_alg».proof.Proof.Gen.KernelIdeal
import proofs.«137029_j14886356648763_2_alg».proof.Proof.Gen.KernelIdeal.Skeleton
import proofs.«137029_j14886356648763_2_alg».proof.Proof.Gen.KernelIdeal.Launch
import proofs.«137029_j14886356648763_2_alg».proof.Proof.Gen.KernelIdeal.Points
import proofs.«137029_j14886356648763_2_alg».proof.Proof.Gen.KernelIdeal.Frame
import proofs.«137029_j14886356648763_2_alg».proof.Proof.Gen.ReferenceIdeal
import proofs.«137029_j14886356648763_2_alg».proof.Proof.Gen.ReferenceIdeal.Run
import proofs.«137029_j14886356648763_2_alg».proof.Proof.Gen.ReferenceIdeal.Read
import proofs.«137029_j14886356648763_2_alg».proof.Proof.Gen.Pre_finite_inputs
import Idealize.ShloMosaic.Adequacy
import Idealize.ShloMosaic.Init
import proofs.«137029_j14886356648763_2_alg».proof.Proof.KernelResult
import proofs.«137029_j14886356648763_2_alg».proof.Proof.RefMessage

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories that agree on the arguments both programs end with every edge's message added into its
    destination node's row: one function of the arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v30_eq, Cert.ReferenceIdeal.RefMessage.result_eq, (hagree c).1, (hagree c).2.1,
    (hagree c).2.2.1, (hagree c).2.2.2.1, (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
